-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S2x1x1 : Shape := ⟨3, ![2, 1, 1]⟩
abbrev S1x1x1024x1024 : Shape := ⟨4, ![1, 1, 1024, 1024]⟩
abbrev S1x1x1 : Shape := ⟨3, ![1, 1, 1]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_30 : BitVec 32 := 0#32
  let v64 : BitVec 1 := Scalar.cmpi .ne v63 c0_i32_30
  v64

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  iota_S1024x1024_d1_w32 : S1024x1024.Iotas .tc 32 [1]
  iota_S1024x1024_d0_w32 : S1024x1024.Iotas .tc 32 [0]
  rotates_S1024x1024_d1 : S1024x1024.Rotates 1 none
  rotates_S1024x1024_d0 : S1024x1024.Rotates 0 none
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x1x1024x1024.size a
  hwx0_0 : ∀ i : grid0.Coords, EltTy.bits .f32 = 32 ∨ (Rect.block (s := S16x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x1024x1024 : Shape := ⟨4, ![16, 1, 1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S_, .f32⟩
  | .hbm, ⟨3, _⟩ => ⟨S_, .f32⟩
  | .hbm, ⟨4, _⟩ => ⟨S16x1x1024x1024, .f32⟩
  | .hbm, ⟨5, _⟩ => ⟨S_, .f32⟩
  | .hbm, ⟨6, _⟩ => ⟨S16x1x1024x1024, .f32⟩
  | .hbm, ⟨7, _⟩ => ⟨S16x1x1024x1024, .i1⟩
  | .hbm, ⟨8, _⟩ => ⟨S_, .f32⟩
  | .hbm, ⟨9, _⟩ => ⟨S16x1x1024x1024, .f32⟩
  | .hbm, ⟨10, _⟩ => ⟨S16x1x1024x1024, .i1⟩
  | .hbm, ⟨11, _⟩ => ⟨S_, .f32⟩
  | .hbm, ⟨12, _⟩ => ⟨S_, .f32⟩
  | .hbm, ⟨13, _⟩ => ⟨S16x1x1024x1024, .f32⟩
  | .hbm, ⟨14, _⟩ => ⟨S16x1x1024x1024, .f32⟩
  | .hbm, ⟨15, _⟩ => ⟨S16x1x1024x1024, .f32⟩
  | .hbm, ⟨16, _⟩ => ⟨S_, .f32⟩
  | .hbm, ⟨17, _⟩ => ⟨S16x1x1024x1024, .f32⟩
  | .hbm, ⟨18, _⟩ => ⟨S16x1x1024x1024, .f32⟩
  | .hbm, ⟨19, _⟩ => ⟨S_, .f32⟩
  | .hbm, ⟨20, _⟩ => ⟨S16x1x1024x1024, .f32⟩
  | .hbm, ⟨21, _⟩ => ⟨S16x1x1024x1024, .f32⟩
  | .hbm, ⟨22, _⟩ => ⟨S16x1x1024x1024, .f32⟩
  | .hbm, ⟨23, _⟩ => ⟨S16x1x1024x1024, .f32⟩
  | .hbm, ⟨24, _⟩ => ⟨S16x1x1024x1024, .f32⟩
  | .hbm, ⟨25, _⟩ => ⟨S16x1x1024x1024, .f32⟩
  | .hbm, ⟨26, _⟩ => ⟨S16x1x1024x1024, .f32⟩
  | .hbm, ⟨27, _⟩ => ⟨S16x1x1024x1024, .f32⟩
  | .hbm, ⟨28, _⟩ => ⟨S16x1x1024x1024, .f32⟩
  | .hbm, ⟨29, _⟩ => ⟨S16x1x1024x1024, .f32⟩
  | .hbm, ⟨30, _⟩ => ⟨S16x1x1024x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_4 : Ref sig .tc := ⟨.hbm, 16, rfl⟩
abbrev main_call1_v0 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x1x1024x1024_S16x1x1024x1024_w1s1p0_0_w1s1p0_0_w3s1p1_1_w3s1p1_1 : S16x1x1024x1024.ReduceWindows (![1, 1, 3, 3] : Fin 4 → Nat) ![1, 1, 1, 1] ![0, 0, 1, 1] ![0, 0, 1, 1] S16x1x1024x1024
  h_S_ : 0 < S_.numel
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_

variable [Facts₀]

class Facts : Prop extends Facts₀ where

variable [Facts]
-- ==== Proof.KernelPieces.lean ====
/-
  What one run of the body leaves behind, in each of its three control cases.

  The body runs once per grid point on four buffers: the logits' block, the targets' block, the 1×1×1 output
  block and a 1×1 scratch cell that survives from point to point.  Whatever the case, it ends by storing into
  the scratch cell one value, `step`: a function of the two input blocks and of what the scratch cell held
  when that store's operand was loaded.  In the first case (the first point of a partial sum) the cell was
  just overwritten with the reset value, so that is what was loaded; in the other two it is what the previous
  point left.  In the last case (the last point of a partial sum) the body also copies the cell, reshaped,
  into the output block.  Each statement below reads the stores the run performed back as one value: a
  covering store's contents are its operand, and a load of a whole buffer reads the buffer.
-/
import proofs.«172257_j10505490006429_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One point's update of the running total: the total before, plus the sum of this image's weighted losses. -/
abbrev step (x0 x1 : Vec F S1x1x1024x1024 .f32) (xs : Vec F S1x1 .f32) : Vec F S1x1 .f32 :=
  k0_pay1 (k0_pay4 x0) (k0_pay5 x1) (k0_pay6 x1) (k0_pay7 (F := F)) xs

/-- A middle point: the scratch ends at `step` of the blocks and of what the previous point left. -/
theorem sout_B (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S1x1x1024x1024 .f32) (xs0 : Vec F S1x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S1x1) hz2,
    View.ld_unit_zero (S := S1x1x1024x1024) hz4]

/-- A last point: the same for the scratch. -/
theorem sout_C (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S1x1x1024x1024 .f32) (xs0 : Vec F S1x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1x1) hz2,
    View.ld_unit_zero (S := S1x1x1024x1024) hz4]

/-- A last point: the output block ends at the reshaped scratch. -/
theorem out_C (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S1x1x1024x1024 .f32) (xs0 : Vec F S1x1 .f32) :
    out0_C_2 c i a2 h2 a3 h3 a4 h4 a5 h5 hc0 hc1 x0 x1 xs0 = k0_pay2 (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1) _ hz2]
  simp only [View.readAt_eq_ld, h2.read_unread, h3.read_unread, h5.read_unread, View.ld_unit_zero (S := S1x1) hz2,
    View.ld_unit_zero (S := S1x1x1024x1024) hz4]

/-- A first point: the scratch is reset first, so it ends at `step` of the blocks and of the reset value. -/
theorem sout_A (c : Dev nD) (i : grid0.Coords) (a2 : Memref sig .tc .vmem S1x1x1024x1024 .f32) (h2 : a2.IsWhole)
    (a3 : Memref sig .tc .vmem S1x1x1024x1024 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S1x1x1024x1024 .f32) :
    sout0_A_0 c i a2 h2 a3 h3 a4 h4 a5 h5 hc0 hc1 x0 x1 = step x0 x1 (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, h5.read_unread, View.ld_unit_zero (S := S1x1) hz2,
    View.ld_unit_zero (S := S1x1x1024x1024) hz4]

end Cert.KernelIdeal.Pieces

end
-- ==== Proof.Spec.lean ====
/-
  The quantity both programs compute, and the regrouping of its sum.

  For a logit x, a target t and a flag b (whether the 3×3-dilated target exceeds one half at the pixel) the
  weighted loss of the pixel is

      w · ((max x 0 − x·t) + log(1 + e^{−|x|})),   w = 20 if t > 1/2, else 5 if b, else 1,

  with |x| = max x (−x).  The result of either program is the sum of the pixel losses over the sixteen
  1024×1024 images divided by 2²⁴.  One program adds all pixels at once; the other adds the lanes of a row,
  then the rows of an image, then eight images in turn into each of two partial sums, then the two partial
  sums.  On the extended reals addition is commutative and associative without any finiteness assumption,
  so the two groupings give the same sum.
-/
import Idealize.ShloMosaic.Lib.ValueIdx
import Idealize.ShloMosaic.PureOps.Ideal.Laws

noncomputable section

namespace Spec

open Idealize.ShloMosaic Idealize.ShloMosaic.ValueIdx

/-- One half, 1, 5 and 20 as the f32 words both programs spell (never evaluated: the same word on both sides). -/
abbrev half : EReal := Ideal.ofBits .f32 0x3F000000#32
abbrev one : EReal := Ideal.ofBits .f32 0x3F800000#32
abbrev five : EReal := Ideal.ofBits .f32 0x40A00000#32
abbrev twenty : EReal := Ideal.ofBits .f32 0x41A00000#32

/-- The weighted loss of one pixel: logit `x`, target `t`, `b` the bit "the dilated target exceeds one half". -/
def pixel (x t : EReal) (b : BitVec 1) : EReal :=
  Scalar.select (Ideal.cmp .ogt t half) twenty (Scalar.select b five one)
    * ((max x 0 - x * t) + Ideal.log1p (Ideal.exp (-(max x (-x)))))

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Image number 8·i + b, the b-th of the eight images the i-th partial sum collects. -/
abbrev img (i : Fin 2) (b : Fin 8) : Fin 16 := ⟨8 * i.val + b.val, by have := i.isLt; have := b.isLt; omega⟩

/-- Sixteen terms summed at once are two groups of eight consecutive ones. -/
theorem sum_img {M : Type*} [AddCommMonoid M] (g : Fin 16 → M) :
    ∑ n : Fin 16, g n = ∑ i : Fin 2, ∑ b : Fin 8, g (img i b) := by
  rw [← Fintype.sum_prod_type']
  exact (Fintype.sum_equiv (finProdFinEquiv (m := 2) (n := 8)) (fun p => g (img p.1 p.2)) g
    (fun p => congrArg g (Fin.ext (by show 8 * p.1.val + p.2.val = p.2.val + 8 * p.1.val; omega)))).symm

/-- The sum over all pixels of all images, regrouped the way the tiled program adds it: per partial sum, per
    image, per row, per lane (the unit channel axis carries one value). -/
theorem sum_batch {M : Type*} [AddCommMonoid M] (f : (⟨4, ![16, 1, 1024, 1024]⟩ : Shape).Idx → M) :
    ∑ j, f j = ∑ i : Fin 2, ∑ b : Fin 8, ∑ r : Fin 1024, ∑ q : Fin 1024, f (ix4 (img i b) (0 : Fin 1) r q) := by
  rw [sum_idx4, sum_img]
  refine Finset.sum_congr rfl fun i _ => Finset.sum_congr rfl fun b _ => ?_
  rw [Fin.sum_univ_one]

end Spec

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.KernelPayload.lean ====
/-
  The body's arithmetic, read at F := Ideal.

  At one grid point the body holds one image of logits and one of targets.  It forms the image of pixel
  losses, adds the lanes of each row, then the rows, and adds that total to the running total kept in the
  1×1 scratch; the first point of a partial sum first resets the scratch to 0, and the last one copies the
  running total to the 1×1×1 output block.
-/
import proofs.«172257_j10505490006429_2_alg».proof.Proof.Gen.KernelIdeal.Skeleton
import proofs.«172257_j10505490006429_2_alg».proof.Proof.Spec
import proofs.«172257_j10505490006429_2_alg».proof.Proof.LibKeepdims
import proofs.«172257_j10505490006429_2_alg».proof.Proof.LibSublaneSum
import Idealize.ShloMosaic.Lib.ValueLayout

noncomputable section

namespace Cert.KernelIdeal.Payload

open Cert.KernelIdeal Cert.KernelIdeal.Gen Idealize.ShloMosaic Idealize.ShloMosaic.ValueIdx

/-- The image of pixel losses, from the logits `v4`, the targets `v6` and the dilated targets `v32`. -/
def lossImg (v4 v6 v32 : FVec Ideal S1024x1024 .f32) : FVec Ideal S1024x1024 .f32 :=
  have v33 : FVec Ideal S1024x1024 .f32 := k0_pay7 (F := Ideal)
  have v34 : IVec S1024x1024 1 := cmpf .ogt v6 v33
  have cst_18 : Ideal .f32 := Scalar.ofBits .f32 0x3F000000#32
  have v35 : FVec Ideal S1024x1024 .f32 := broadcast S1024x1024 cst_18
  have v36 : IVec S1024x1024 1 := cmpf .ogt v32 v35
  have cst_19 : Ideal .f32 := Scalar.ofBits .f32 0x40A00000#32
  have cst_20 : Ideal .f32 := Scalar.ofBits .f32 0x3F800000#32
  have v37 : FVec Ideal S1024x1024 .f32 := broadcast S1024x1024 cst_19
  have v38 : FVec Ideal S1024x1024 .f32 := broadcast S1024x1024 cst_20
  have v39 : FVec Ideal S1024x1024 .f32 := select v36 v37 v38
  have cst_21 : Ideal .f32 := Scalar.ofBits .f32 0x41A00000#32
  have v40 : FVec Ideal S1024x1024 .f32 := broadcast S1024x1024 cst_21
  have v41 : FVec Ideal S1024x1024 .f32 := select v34 v40 v39
  have v42 : FVec Ideal S1024x1024 .f32 := absf v4
  have cst_22 : Ideal .f32 := Scalar.ofBits .f32 0x00000000#32
  have v43 : FVec Ideal S1024x1024 .f32 := broadcast S1024x1024 cst_22
  have v44 : FVec Ideal S1024x1024 .f32 := maximumf v4 v43
  have v45 : FVec Ideal S1024x1024 .f32 := mulf v4 v6
  have v46 : FVec Ideal S1024x1024 .f32 := subf v44 v45
  have cst_23 : Ideal .f32 := Scalar.ofBits .f32 0x00000000#32
  have v47 : FVec Ideal S1024x1024 .f32 := broadcast S1024x1024 cst_23
  have v48 : FVec Ideal S1024x1024 .f32 := subf v47 v42
  have v49 : FVec Ideal S1024x1024 .f32 := exp v48
  have v50 : FVec Ideal S1024x1024 .f32 := log1p v49
  have v51 : FVec Ideal S1024x1024 .f32 := addf v46 v50
  mulf v41 v51

/-- Each entry of the loss image is the pixel loss of the entries there (the kernel writes −|x| as 0 − |x|). -/
theorem lossImg_apply (v4 v6 v32 : FVec Ideal S1024x1024 .f32) (r q : Fin 1024) :
    lossImg v4 v6 v32 (ix2 r q)
      = Spec.pixel (v4 (ix2 r q)) (v6 (ix2 r q)) (Ideal.cmp .ogt (v32 (ix2 r q)) Spec.half) := by
  show Scalar.select (Ideal.cmp .ogt (v6 (ix2 r q)) Spec.half) Spec.twenty
        (Scalar.select (Ideal.cmp .ogt (v32 (ix2 r q)) Spec.half) Spec.five Spec.one)
      * ((max (v4 (ix2 r q)) (Ideal.ofBits .f32 0x00000000#32) - v4 (ix2 r q) * v6 (ix2 r q))
        + Ideal.log1p (Ideal.exp (Ideal.ofBits .f32 0x00000000#32 - max (v4 (ix2 r q)) (-(v4 (ix2 r q)))))) = _
  rw [Ideal.ofBits_zero_f32, zero_sub]
  rfl

/-- The sum of all entries of an image, rows outermost. -/
def total (L : FVec Ideal S1024x1024 .f32) : EReal := ∑ r : Fin 1024, ∑ q : Fin 1024, L (ix2 r q)

/-- The lane sums, kept as a column, summed along the rows and kept as a 1×1 block: the sum of all entries. -/
theorem reduce_apply (L : FVec Ideal S1024x1024 .f32) (j : S1x1.Idx) :
    shapeCast S1x1 (multiReduction (F := Ideal) .add [0] S1 (shapeCast S1024x1
        (multiReduction (F := Ideal) .add [1] S1024 L 0x00000000#32 reduces_S1024x1024_S1024 (.inl rfl) rfl) shapeCasts_S1024_S1024x1)
        0x00000000#32 reduces_S1024x1_S1 (.inl rfl) rfl) shapeCasts_S1_S1x1 j = total L := by
  obtain ⟨u, z, rfl⟩ : ∃ (u z : Fin 1), j = ix2 u z := ⟨j 0, j 1, eq_ix2 j⟩
  rw [shapeCast_a_1a_apply, SublaneSum.rowSum_apply]
  unfold total
  refine Finset.sum_congr rfl fun r _ => ?_
  rw [Keepdims.shapeCast_a_a1_apply, Keepdims.laneSum_apply]

/-- The running total after a point is the running total before it plus the sum of the point's loss image. -/
theorem pay1_apply (v4 v6 v32 : FVec Ideal S1024x1024 .f32) (v57 : Vec Ideal S1x1 .f32) (j : S1x1.Idx) :
    k0_pay1 v4 v6 v32 (k0_pay7 (F := Ideal)) v57 j = v57 j + total (lossImg v4 v6 v32) := by
  show (shapeCast S1x1 (addf v57 (shapeCast S1x1 (multiReduction (F := Ideal) .add [0] S1 (shapeCast S1024x1
        (multiReduction (F := Ideal) .add [1] S1024 (lossImg v4 v6 v32) 0x00000000#32 reduces_S1024x1024_S1024 (.inl rfl) rfl) shapeCasts_S1024_S1024x1)
        0x00000000#32 reduces_S1024x1_S1 (.inl rfl) rfl) shapeCasts_S1_S1x1)) shapeCasts_S1x1_S1x1) j = _
  rw [shapeCast_self]
  show v57 j + _ = _
  rw [reduce_apply]

/-- The reset value of the running total is 0. -/
theorem pay3_apply (j : S1x1.Idx) : k0_pay3 (F := Ideal) j = 0 := by
  show (shapeCast S1x1 (broadcast S1x1 (Scalar.ofBits (F := Ideal) .f32 0x00000000#32)) shapeCasts_S1x1_S1x1) j = 0
  rw [shapeCast_self]
  exact Ideal.ofBits_zero_f32

/-- The 1×1×1 output block holds the running total. -/
theorem pay2_apply (v65 : Vec Ideal S1x1 .f32) (a b c : Fin 1) :
    k0_pay2 v65 (ix3 a b c) = v65 (ix2 b c) := by
  show shapeCast S1x1x1 v65 shapeCasts_S1x1_S1x1x1 (ix3 a b c) = _
  rw [shapeCast_ab_1ab_apply]

end Cert.KernelIdeal.Payload

end
-- ==== Proof.KernelAcc.lean ====
/-
  What the scratch and the output block hold after each grid point.

  The sixteen grid points run in order; point n handles image n.  The scratch holds a running total: reset
  to 0 and then increased by image n's total at the points n ≡ 0 (mod 8), increased by image n's total
  at the others; at the points n ≡ 7 (mod 8) the output block receives a copy of the running total.  By
  induction on the point, after point n the running total is the sum of the totals of the images
  8·(n / 8), …, n.
-/
import proofs.«172257_j10505490006429_2_alg».proof.Proof.KernelPieces
import proofs.«172257_j10505490006429_2_alg».proof.Proof.KernelPayload

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

section AnyF
variable {F : FTy → Type} [FloatOps F]
variable (m : (ℓ : Loc nD τ sig) → Buf (Elt F) ℓ)

/-- The running total after point `n`. -/
def acc (c : Dev nD) : (n : ℕ) → n < cfg0.N → Vec F S1x1 .f32
  | 0, h => step (iblk m c 0 ⟨0, h⟩) (iblk m c 1 ⟨0, h⟩) (k0_pay3 (F := F))
  | n + 1, h =>
    if (n + 1) % 8 = 0 then step (iblk m c 0 ⟨n + 1, h⟩) (iblk m c 1 ⟨n + 1, h⟩) (k0_pay3 (F := F))
    else step (iblk m c 0 ⟨n + 1, h⟩) (iblk m c 1 ⟨n + 1, h⟩) (acc c n (Nat.lt_of_succ_lt h))

theorem acc_succ_reset (c : Dev nD) (n : ℕ) (h : n + 1 < cfg0.N) (h0 : (n + 1) % 8 = 0) :
    acc m c (n + 1) h = step (iblk m c 0 ⟨n + 1, h⟩) (iblk m c 1 ⟨n + 1, h⟩) (k0_pay3 (F := F)) := by
  rw [acc, if_pos h0]

theorem acc_succ_carry (c : Dev nD) (n : ℕ) (h : n + 1 < cfg0.N) (h0 : ¬(n + 1) % 8 = 0) :
    acc m c (n + 1) h = step (iblk m c 0 ⟨n + 1, h⟩) (iblk m c 1 ⟨n + 1, h⟩) (acc m c n (Nat.lt_of_succ_lt h)) := by
  rw [acc, if_neg h0]

/-- The scratch after point `n` holds the running total. -/
theorem outsAt_snd (c : Dev nD) : ∀ (n : ℕ) (h : n < cfg0.N), (outsAt0 m c n h).2 = acc m c n h
  | 0, h => by
    rw [outsAt0_A m c ⟨0, h⟩ (Nat.zero_mod 8) (by show ¬0 % 8 = 7; decide)]
    dsimp only
    exact sout_A ..
  | n + 1, h => by
    by_cases h0 : (n + 1) % 8 = 0
    · have h1 : ¬(n + 1) % 8 = 7 := by omega
      rw [outsAt0_A m c ⟨n + 1, h⟩ h0 h1, acc_succ_reset m c n h h0]
      dsimp only
      exact sout_A ..
    · by_cases h1 : (n + 1) % 8 = 7
      · rw [outsAt0_C m c ⟨n + 1, h⟩ h0 h1, acc_succ_carry m c n h h0]
        dsimp only
        rw [sout_C]
        show step _ _ (outsAt0 m c n _).2 = step _ _ (acc m c n _)
        rw [outsAt_snd c n]
      · rw [outsAt0_B m c ⟨n + 1, h⟩ h0 h1, acc_succ_carry m c n h h0]
        dsimp only
        rw [sout_B]
        show step _ _ (outsAt0 m c n _).2 = step _ _ (acc m c n _)
        rw [outsAt_snd c n]

/-- At a point n ≡ 7 (mod 8) the output block receives the running total. -/
theorem outsAt_fst (c : Dev nD) (t : Fin cfg0.N) (h7 : t.val % 8 = 7) :
    (outsAt0 m c t.val t.isLt).1 = k0_pay2 (acc m c t.val t.isLt) := by
  have h0 : ¬t.val % 8 = 0 := by omega
  rw [← outsAt_snd m c t.val t.isLt, outsAt0_C m c t h0 h7]
  dsimp only
  rw [out_C, sout_C]

end AnyF

end Cert.KernelIdeal.Acc

end
-- ==== Proof.Dilate.lean ====
/-
  The 3×3 dilation of a 1024×1024 image, compared with one half, two ways.

  Both programs only ever ask of the dilated image whether an entry exceeds one half.  For a maximum this
  question distributes: max a b exceeds h exactly when a or b does.  So for either way of computing the
  dilation, the entry at (r, c) exceeds one half exactly when some entry of the image in the 3×3
  neighbourhood of (r, c) — the positions (r', c') inside the image with |r' - r| ≤ 1 and |c' - c| ≤ 1 —
  exceeds one half, PROVIDED the value used outside the image does not itself exceed one half.  One program
  uses 0 there (rotations along each axis, the wrapped-around border masked to 0), the other uses -∞ (a
  windowed maximum over the image padded by one position on each side); neither exceeds one half.
-/
import Idealize.ShloMosaic.Lib.ValueIdx
import Idealize.ShloMosaic.Lib.Pipeline.Value
import Idealize.ShloMosaic.Lib.KernelVsHost
import Idealize.ShloMosaic.PureOps.Ideal.Laws

noncomputable section

namespace Dilate

open Idealize.ShloMosaic Idealize.ShloMosaic.ValueIdx

/-- One image: 1024 rows of 1024 lanes. -/
abbrev Img : Shape := ⟨2, ![1024, 1024]⟩
/-- Sixteen one-channel images. -/
abbrev Batch : Shape := ⟨4, ![16, 1, 1024, 1024]⟩
/-- A scalar. -/
abbrev Sc : Shape := ⟨0, ![]⟩

/-- One half, as the f32 word both programs spell. -/
abbrev half : EReal := Ideal.ofBits .f32 0x3F000000#32

/-- Some entry of `t` in the 3×3 neighbourhood of (r, c), inside the image, exceeds one half. -/
def nearAbove (t : Fin 1024 → Fin 1024 → EReal) (r c : Fin 1024) : Prop :=
  ∃ r' c' : Fin 1024, r.val ≤ r'.val + 1 ∧ r'.val ≤ r.val + 1 ∧ c.val ≤ c'.val + 1 ∧ c'.val ≤ c.val + 1 ∧ half < t r' c'

/-- The dilation by rotations: along the lanes, the left neighbour (rotation by 1, lane 0 masked to 0) and
    the right neighbour (rotation by 1023, lane 1023 masked to 0) joined with the entry by two maxima; then
    the same along the rows, on the result. -/
def rollDilate (t : FVec Ideal Img .f32) (hi1 : Img.Iotas .tc 32 [1]) (hi0 : Img.Iotas .tc 32 [0])
    (hr1 : Img.Rotates 1 none) (hr0 : Img.Rotates 0 none) : FVec Ideal Img .f32 :=
  have v7 : IVec Img 32 := iota .tc Img 32 [1] hi1
  have v8 : IVec Img 32 := iota .tc Img 32 [0] hi0
  have v9 : IVec Img 32 := broadcast Img 0#32
  have v10 : IVec Img 1 := cmpi .eq v7 v9
  have v11 : FVec Ideal Img .f32 := dynamicRotate 1 1#32 none t hr1
  have cst : Ideal .f32 := Scalar.ofBits .f32 0x00000000#32
  have v12 : FVec Ideal Img .f32 := broadcast Img cst
  have v13 : FVec Ideal Img .f32 := select v10 v12 v11
  have v14 : IVec Img 32 := broadcast Img 1023#32
  have v15 : IVec Img 1 := cmpi .eq v7 v14
  have v16 : FVec Ideal Img .f32 := dynamicRotate 1 1023#32 none t hr1
  have cst_10 : Ideal .f32 := Scalar.ofBits .f32 0x00000000#32
  have v17 : FVec Ideal Img .f32 := broadcast Img cst_10
  have v18 : FVec Ideal Img .f32 := select v15 v17 v16
  have v19 : FVec Ideal Img .f32 := maximumf v13 t
  have v20 : FVec Ideal Img .f32 := maximumf v19 v18
  have v21 : IVec Img 32 := broadcast Img 0#32
  have v22 : IVec Img 1 := cmpi .eq v8 v21
  have v23 : FVec Ideal Img .f32 := dynamicRotate 0 1#32 none v20 hr0
  have cst_13 : Ideal .f32 := Scalar.ofBits .f32 0x00000000#32
  have v24 : FVec Ideal Img .f32 := broadcast Img cst_13
  have v25 : FVec Ideal Img .f32 := select v22 v24 v23
  have v26 : IVec Img 32 := broadcast Img 1023#32
  have v27 : IVec Img 1 := cmpi .eq v8 v26
  have v28 : FVec Ideal Img .f32 := dynamicRotate 0 1023#32 none v20 hr0
  have cst_16 : Ideal .f32 := Scalar.ofBits .f32 0x00000000#32
  have v29 : FVec Ideal Img .f32 := broadcast Img cst_16
  have v30 : FVec Ideal Img .f32 := select v27 v29 v28
  have v31 : FVec Ideal Img .f32 := maximumf v25 v20
  have v32 : FVec Ideal Img .f32 := maximumf v31 v30
  v32

/-- One half is the real number 1/2. -/
theorem half_eq : half = (((1:ℝ)/2 : ℝ) : EReal) := by
  simp [Ideal.ofBits, Ideal.ieee, -EReal.coe_mul]; norm_num

/-- Zero is below one half. -/
theorem zero_lt_half : (0 : EReal) < half := by
  rw [half_eq]; exact_mod_cast (by norm_num : (0:ℝ) < 1/2)

/-- The masking value 0 does not exceed one half. -/
theorem not_half_lt_zero : ¬ half < (0 : EReal) := not_lt.mpr zero_lt_half.le

/-- The padding value -∞ does not exceed one half. -/
theorem not_half_lt_bot : ¬ half < (⊥ : EReal) := not_lt_bot

/-- A 32-bit comparison for equality gives the bit 1 exactly on equal words. -/
theorem cmpi_eq_one (x y : BitVec 32) : IntOp.cmpi .eq x y = 1#1 ↔ x = y := by
  have hb : ∀ b : Bool, BitVec.ofBool b = 1#1 ↔ b = true := fun b => by cases b <;> decide
  show BitVec.ofBool (x == y) = 1#1 ↔ x = y
  rw [hb, beq_iff_eq]

/-- A coordinate below 1024 equals a constant below 1024 as 32-bit words exactly when they are equal numbers. -/
theorem ofNat_eq_ofNat_iff (a b : Nat) (ha : a < 1024) (hb : b < 1024) :
    BitVec.ofNat 32 a = BitVec.ofNat 32 b ↔ a = b := by
  constructor
  · intro h
    have := congrArg BitVec.toNat h
    simp only [BitVec.toNat_ofNat] at this
    omega
  · intro h; rw [h]

/-- A value masked to 0 where the coordinate equals `k`: it exceeds one half exactly when the coordinate is
    not `k` and the value does. -/
theorem masked_gt (a k : Nat) (ha : a < 1024) (hk : k < 1024) (v : EReal) :
    half < Scalar.select (IntOp.cmpi .eq (BitVec.ofNat 32 a) (BitVec.ofNat 32 k)) (Ideal.ofBits .f32 0x00000000#32) v
      ↔ a ≠ k ∧ half < v := by
  by_cases h : a = k
  · have : IntOp.cmpi .eq (BitVec.ofNat 32 a) (BitVec.ofNat 32 k) = 1#1 :=
      (cmpi_eq_one _ _).mpr ((ofNat_eq_ofNat_iff a k ha hk).mpr h)
    rw [this, select_one, Ideal.ofBits_zero_f32]
    exact ⟨fun h' => absurd h' not_half_lt_zero, fun h' => absurd h h'.1⟩
  · have : IntOp.cmpi .eq (BitVec.ofNat 32 a) (BitVec.ofNat 32 k) = 0#1 :=
      eq_zero_of_ne_one (fun h' => h ((ofNat_eq_ofNat_iff a k ha hk).mp ((cmpi_eq_one _ _).mp h')))
    rw [this, select_zero]
    exact ⟨fun h' => ⟨h, h'⟩, fun h' => h'.2⟩

/-- Rotation by 1 along the lanes reads the lane before. -/
theorem rot1_lane (x : FVec Ideal Img .f32) (hr1 : Img.Rotates 1 none) (r c : Fin 1024) (hc : 0 < c.val) :
    dynamicRotate 1 1#32 none x hr1 (ix2 r c) = x (ix2 r ⟨c.val - 1, by omega⟩) := by
  refine dynamicRotate_apply (1 : Fin 2) 1#32 x hr1 _ _ ?_
  intro b
  match b with
  | ⟨0, _⟩ => rfl
  | ⟨1, _⟩ =>
    show c.val - 1 = (c.val + 1024 - (1#32 : BitVec 32).toNat % 1024) % 1024
    have : (1#32 : BitVec 32).toNat = 1 := rfl
    rw [this]; omega

/-- Rotation by 1023 along the lanes reads the lane after. -/
theorem rot1023_lane (x : FVec Ideal Img .f32) (hr1 : Img.Rotates 1 none) (r c : Fin 1024) (hc : c.val + 1 < 1024) :
    dynamicRotate 1 1023#32 none x hr1 (ix2 r c) = x (ix2 r ⟨c.val + 1, hc⟩) := by
  refine dynamicRotate_apply (1 : Fin 2) 1023#32 x hr1 _ _ ?_
  intro b
  match b with
  | ⟨0, _⟩ => rfl
  | ⟨1, _⟩ =>
    show c.val + 1 = (c.val + 1024 - (1023#32 : BitVec 32).toNat % 1024) % 1024
    have : (1023#32 : BitVec 32).toNat = 1023 := rfl
    rw [this]; omega

/-- Rotation by 1 along the rows reads the row before. -/
theorem rot1_row (x : FVec Ideal Img .f32) (hr0 : Img.Rotates 0 none) (r c : Fin 1024) (hr : 0 < r.val) :
    dynamicRotate 0 1#32 none x hr0 (ix2 r c) = x (ix2 ⟨r.val - 1, by omega⟩ c) := by
  refine dynamicRotate_apply (0 : Fin 2) 1#32 x hr0 _ _ ?_
  intro b
  match b with
  | ⟨1, _⟩ => rfl
  | ⟨0, _⟩ =>
    show r.val - 1 = (r.val + 1024 - (1#32 : BitVec 32).toNat % 1024) % 1024
    have : (1#32 : BitVec 32).toNat = 1 := rfl
    rw [this]; omega

/-- Rotation by 1023 along the rows reads the row after. -/
theorem rot1023_row (x : FVec Ideal Img .f32) (hr0 : Img.Rotates 0 none) (r c : Fin 1024) (hr : r.val + 1 < 1024) :
    dynamicRotate 0 1023#32 none x hr0 (ix2 r c) = x (ix2 ⟨r.val + 1, hr⟩ c) := by
  refine dynamicRotate_apply (0 : Fin 2) 1023#32 x hr0 _ _ ?_
  intro b
  match b with
  | ⟨1, _⟩ => rfl
  | ⟨0, _⟩ =>
    show r.val + 1 = (r.val + 1024 - (1023#32 : BitVec 32).toNat % 1024) % 1024
    have : (1023#32 : BitVec 32).toNat = 1023 := rfl
    rw [this]; omega

/-- The lane pass: an entry joined by two maxima with its left and right neighbours, the neighbours that a
    rotation brings around the end masked to 0. -/
def lanePass (x : FVec Ideal Img .f32) (hi1 : Img.Iotas .tc 32 [1]) (hr1 : Img.Rotates 1 none) : FVec Ideal Img .f32 :=
  maximumf
    (maximumf
      (select (cmpi .eq (iota .tc Img 32 [1] hi1) (broadcast Img 0#32))
        (broadcast Img (Scalar.ofBits .f32 0x00000000#32 : Ideal .f32)) (dynamicRotate 1 1#32 none x hr1)) x)
    (select (cmpi .eq (iota .tc Img 32 [1] hi1) (broadcast Img 1023#32))
      (broadcast Img (Scalar.ofBits .f32 0x00000000#32 : Ideal .f32)) (dynamicRotate 1 1023#32 none x hr1))

/-- The row pass: the same along the rows. -/
def rowPass (x : FVec Ideal Img .f32) (hi0 : Img.Iotas .tc 32 [0]) (hr0 : Img.Rotates 0 none) : FVec Ideal Img .f32 :=
  maximumf
    (maximumf
      (select (cmpi .eq (iota .tc Img 32 [0] hi0) (broadcast Img 0#32))
        (broadcast Img (Scalar.ofBits .f32 0x00000000#32 : Ideal .f32)) (dynamicRotate 0 1#32 none x hr0)) x)
    (select (cmpi .eq (iota .tc Img 32 [0] hi0) (broadcast Img 1023#32))
      (broadcast Img (Scalar.ofBits .f32 0x00000000#32 : Ideal .f32)) (dynamicRotate 0 1023#32 none x hr0))

/-- The dilation by rotations is the row pass of the lane pass. -/
theorem rollDilate_eq (t : FVec Ideal Img .f32) (hi1 : Img.Iotas .tc 32 [1]) (hi0 : Img.Iotas .tc 32 [0])
    (hr1 : Img.Rotates 1 none) (hr0 : Img.Rotates 0 none) :
    rollDilate t hi1 hi0 hr1 hr0 = rowPass (lanePass t hi1 hr1) hi0 hr0 := rfl

/-- The lane pass exceeds one half at (r, c) exactly when an entry of row r at most one lane away does. -/
theorem lanePass_gt (x : FVec Ideal Img .f32) (hi1 : Img.Iotas .tc 32 [1]) (hr1 : Img.Rotates 1 none) (r c : Fin 1024) :
    half < lanePass x hi1 hr1 (ix2 r c)
      ↔ ∃ c' : Fin 1024, c.val ≤ c'.val + 1 ∧ c'.val ≤ c.val + 1 ∧ half < x (ix2 r c') := by
  have hc := c.isLt
  show half < max (max (Scalar.select (IntOp.cmpi .eq (iota .tc Img 32 [1] hi1 (ix2 r c)) (BitVec.ofNat 32 0))
        (Ideal.ofBits .f32 0x00000000#32) (dynamicRotate 1 1#32 none x hr1 (ix2 r c))) (x (ix2 r c)))
      (Scalar.select (IntOp.cmpi .eq (iota .tc Img 32 [1] hi1 (ix2 r c)) (BitVec.ofNat 32 1023))
        (Ideal.ofBits .f32 0x00000000#32) (dynamicRotate 1 1023#32 none x hr1 (ix2 r c))) ↔ _
  rw [iota_single_apply]
  show half < max (max (Scalar.select (IntOp.cmpi .eq (BitVec.ofNat 32 c.val) (BitVec.ofNat 32 0))
        (Ideal.ofBits .f32 0x00000000#32) (dynamicRotate 1 1#32 none x hr1 (ix2 r c))) (x (ix2 r c)))
      (Scalar.select (IntOp.cmpi .eq (BitVec.ofNat 32 c.val) (BitVec.ofNat 32 1023))
        (Ideal.ofBits .f32 0x00000000#32) (dynamicRotate 1 1023#32 none x hr1 (ix2 r c))) ↔ _
  rw [lt_max_iff, lt_max_iff, masked_gt _ _ hc (by omega), masked_gt _ _ hc (by omega)]
  constructor
  · rintro ((⟨h0, h⟩ | h) | ⟨h1, h⟩)
    · rw [rot1_lane x hr1 r c (by omega)] at h
      exact ⟨⟨c.val - 1, by omega⟩, by show c.val ≤ c.val - 1 + 1; omega, by show c.val - 1 ≤ c.val + 1; omega, h⟩
    · exact ⟨c, by omega, by omega, h⟩
    · rw [rot1023_lane x hr1 r c (by omega)] at h
      exact ⟨⟨c.val + 1, by omega⟩, by show c.val ≤ c.val + 1 + 1; omega, by show c.val + 1 ≤ c.val + 1; omega, h⟩
  · rintro ⟨c', h1, h2, h⟩
    have hc' := c'.isLt
    rcases (by omega : c'.val + 1 = c.val ∨ c'.val = c.val ∨ c'.val = c.val + 1) with e | e | e
    · refine Or.inl (Or.inl ⟨by omega, ?_⟩)
      rw [rot1_lane x hr1 r c (by omega)]
      have : c' = ⟨c.val - 1, by omega⟩ := Fin.ext (by show c'.val = c.val - 1; omega)
      rw [← this]; exact h
    · have : c' = c := Fin.ext e
      rw [this] at h; exact Or.inl (Or.inr h)
    · refine Or.inr ⟨by omega, ?_⟩
      rw [rot1023_lane x hr1 r c (by omega)]
      have : c' = ⟨c.val + 1, by omega⟩ := Fin.ext e
      rw [← this]; exact h

/-- The row pass exceeds one half at (r, c) exactly when an entry of lane c at most one row away does. -/
theorem rowPass_gt (x : FVec Ideal Img .f32) (hi0 : Img.Iotas .tc 32 [0]) (hr0 : Img.Rotates 0 none) (r c : Fin 1024) :
    half < rowPass x hi0 hr0 (ix2 r c)
      ↔ ∃ r' : Fin 1024, r.val ≤ r'.val + 1 ∧ r'.val ≤ r.val + 1 ∧ half < x (ix2 r' c) := by
  have hr := r.isLt
  show half < max (max (Scalar.select (IntOp.cmpi .eq (iota .tc Img 32 [0] hi0 (ix2 r c)) (BitVec.ofNat 32 0))
        (Ideal.ofBits .f32 0x00000000#32) (dynamicRotate 0 1#32 none x hr0 (ix2 r c))) (x (ix2 r c)))
      (Scalar.select (IntOp.cmpi .eq (iota .tc Img 32 [0] hi0 (ix2 r c)) (BitVec.ofNat 32 1023))
        (Ideal.ofBits .f32 0x00000000#32) (dynamicRotate 0 1023#32 none x hr0 (ix2 r c))) ↔ _
  rw [iota_single_apply]
  show half < max (max (Scalar.select (IntOp.cmpi .eq (BitVec.ofNat 32 r.val) (BitVec.ofNat 32 0))
        (Ideal.ofBits .f32 0x00000000#32) (dynamicRotate 0 1#32 none x hr0 (ix2 r c))) (x (ix2 r c)))
      (Scalar.select (IntOp.cmpi .eq (BitVec.ofNat 32 r.val) (BitVec.ofNat 32 1023))
        (Ideal.ofBits .f32 0x00000000#32) (dynamicRotate 0 1023#32 none x hr0 (ix2 r c))) ↔ _
  rw [lt_max_iff, lt_max_iff, masked_gt _ _ hr (by omega), masked_gt _ _ hr (by omega)]
  constructor
  · rintro ((⟨h0, h⟩ | h) | ⟨h1, h⟩)
    · rw [rot1_row x hr0 r c (by omega)] at h
      exact ⟨⟨r.val - 1, by omega⟩, by show r.val ≤ r.val - 1 + 1; omega, by show r.val - 1 ≤ r.val + 1; omega, h⟩
    · exact ⟨r, by omega, by omega, h⟩
    · rw [rot1023_row x hr0 r c (by omega)] at h
      exact ⟨⟨r.val + 1, by omega⟩, by show r.val ≤ r.val + 1 + 1; omega, by show r.val + 1 ≤ r.val + 1; omega, h⟩
  · rintro ⟨r', h1, h2, h⟩
    have hr' := r'.isLt
    rcases (by omega : r'.val + 1 = r.val ∨ r'.val = r.val ∨ r'.val = r.val + 1) with e | e | e
    · refine Or.inl (Or.inl ⟨by omega, ?_⟩)
      rw [rot1_row x hr0 r c (by omega)]
      have : r' = ⟨r.val - 1, by omega⟩ := Fin.ext (by show r'.val = r.val - 1; omega)
      rw [← this]; exact h
    · have : r' = r := Fin.ext e
      rw [this] at h; exact Or.inl (Or.inr h)
    · refine Or.inr ⟨by omega, ?_⟩
      rw [rot1023_row x hr0 r c (by omega)]
      have : r' = ⟨r.val + 1, by omega⟩ := Fin.ext e
      rw [← this]; exact h

/-- The dilation by rotations exceeds one half at (r, c) exactly when a neighbour inside the image does. -/
theorem rollDilate_gt (t : FVec Ideal Img .f32) (hi1 : Img.Iotas .tc 32 [1]) (hi0 : Img.Iotas .tc 32 [0])
    (hr1 : Img.Rotates 1 none) (hr0 : Img.Rotates 0 none) (r c : Fin 1024) :
    half < rollDilate t hi1 hi0 hr1 hr0 (ix2 r c) ↔ nearAbove (fun r' c' => t (ix2 r' c')) r c := by
  rw [rollDilate_eq, rowPass_gt]
  unfold nearAbove
  constructor
  · rintro ⟨r', h1, h2, h⟩
    obtain ⟨c', h3, h4, h5⟩ := (lanePass_gt t hi1 hr1 r' c).mp h
    exact ⟨r', c', h1, h2, h3, h4, h5⟩
  · rintro ⟨r', c', h1, h2, h3, h4, h5⟩
    exact ⟨r', h1, h2, (lanePass_gt t hi1 hr1 r' c).mpr ⟨c', h3, h4, h5⟩⟩

/-- A left fold of maxima exceeds `h` exactly when its starting value or one of its terms does. -/
theorem lt_foldl_max {ι : Type} (g : ι → EReal) (h : EReal) (l : List ι) (v : EReal) :
    h < l.foldl (fun r n => max r (g n)) v ↔ h < v ∨ ∃ n ∈ l, h < g n := by
  induction l generalizing v with
  | nil => simp
  | cons a l ih =>
    rw [List.foldl_cons, ih, lt_max_iff]
    constructor
    · rintro ((h1 | h1) | ⟨n, hn, h1⟩)
      · exact Or.inl h1
      · exact Or.inr ⟨a, List.mem_cons_self, h1⟩
      · exact Or.inr ⟨n, List.mem_cons_of_mem _ hn, h1⟩
    · rintro (h1 | ⟨n, hn, h1⟩)
      · exact Or.inl (Or.inl h1)
      · rcases List.mem_cons.mp hn with e | e
        · subst e; exact Or.inl (Or.inr h1)
        · exact Or.inr ⟨n, e, h1⟩

/-- The 3×3 window over the two image axes. -/
abbrev Win : Shape := ⟨4, ![1, 1, 3, 3]⟩

/-- What window position `w` contributes at the output index (n, z, r, c): the entry of the image one position up
    and to the left of (r, c) + w when that is inside the image, and the value `v` otherwise. -/
def winTerm (T : FVec Ideal Batch .f32) (v : EReal) (n : Fin 16) (z : Fin 1) (r c : Fin 1024) (w : Win.Idx) : EReal :=
  @dite _ (∀ a : Fin 4, (![0, 0, 1, 1] : Fin 4 → Nat) a ≤ (ix4 n z r c a).val * (![1, 1, 1, 1] : Fin 4 → Nat) a + (w a).val
      ∧ (ix4 n z r c a).val * (![1, 1, 1, 1] : Fin 4 → Nat) a + (w a).val - (![0, 0, 1, 1] : Fin 4 → Nat) a < Batch.size a)
    (Nat.decidableForallFin _)
    (fun hin => T (fun a => ⟨(ix4 n z r c a).val * (![1, 1, 1, 1] : Fin 4 → Nat) a + (w a).val - (![0, 0, 1, 1] : Fin 4 → Nat) a, (hin a).2⟩))
    (fun _ => v)

/-- The windowed maximum at an index is the fold of maxima of the window positions' contributions. -/
theorem reduceWindow_eq (T : FVec Ideal Batch .f32) (init : Sc.Idx → Ideal .f32)
    (h : Batch.ReduceWindows (![1, 1, 3, 3] : Fin 4 → Nat) ![1, 1, 1, 1] ![0, 0, 1, 1] ![0, 0, 1, 1] Batch)
    (hu : 0 < Sc.numel) (n : Fin 16) (z : Fin 1) (r c : Fin 1024) :
    Host.reduceWindow FloatOps.maximumf ![1, 1, 3, 3] ![1, 1, 1, 1] ![0, 0, 1, 1] ![0, 0, 1, 1] T init h hu (ix4 n z r c)
      = (List.finRange Win.numel).foldl
          (fun acc m => max acc (winTerm T (init (Shape.Idx.first hu)) n z r c (Win.rowMajor.symm m)))
          (init (Shape.Idx.first hu)) := by
  unfold Host.reduceWindow
  refine congrArg (fun f => List.foldl f (init (Shape.Idx.first hu)) (List.finRange Win.numel))
    (funext fun acc => funext fun m => ?_)
  unfold winTerm
  rfl

/-- A window position contributes more than one half, -∞ standing outside the image, exactly when the position one
    up and to the left of (r, c) + w is inside the image and the entry there exceeds one half. -/
theorem winTerm_gt (T : FVec Ideal Batch .f32) (n : Fin 16) (z : Fin 1) (r c : Fin 1024) (w : Win.Idx) :
    half < winTerm T ⊥ n z r c w
      ↔ ∃ (_ : 1 ≤ r.val + (w 2).val) (hr2 : r.val + (w 2).val - 1 < 1024)
          (_ : 1 ≤ c.val + (w 3).val) (hc2 : c.val + (w 3).val - 1 < 1024),
          half < T (ix4 n z ⟨r.val + (w 2).val - 1, hr2⟩ ⟨c.val + (w 3).val - 1, hc2⟩) := by
  have hw0 : (w 0).val < 1 := (w 0).isLt
  have hw1 : (w 1).val < 1 := (w 1).isLt
  have hn : n.val < 16 := n.isLt
  have hz : z.val < 1 := z.isLt
  unfold winTerm
  constructor
  · intro hlt
    split at hlt
    · rename_i hin
      have h2 : 1 ≤ r.val * 1 + (w 2).val ∧ r.val * 1 + (w 2).val - 1 < 1024 := hin 2
      have h3 : 1 ≤ c.val * 1 + (w 3).val ∧ c.val * 1 + (w 3).val - 1 < 1024 := hin 3
      refine ⟨by omega, by omega, by omega, by omega, ?_⟩
      refine lt_of_lt_of_eq hlt (congrArg T (funext fun a => ?_))
      match a with
      | ⟨0, _⟩ => exact Fin.ext (by show n.val * 1 + (w 0).val - 0 = n.val; omega)
      | ⟨1, _⟩ => exact Fin.ext (by show z.val * 1 + (w 1).val - 0 = z.val; omega)
      | ⟨2, _⟩ => exact Fin.ext (by show r.val * 1 + (w 2).val - 1 = r.val + (w 2).val - 1; omega)
      | ⟨3, _⟩ => exact Fin.ext (by show c.val * 1 + (w 3).val - 1 = c.val + (w 3).val - 1; omega)
    · exact absurd hlt not_half_lt_bot
  · rintro ⟨hr1, hr2, hc1, hc2, hT⟩
    split
    · refine lt_of_lt_of_eq hT (congrArg T (funext fun a => ?_))
      match a with
      | ⟨0, _⟩ => exact Fin.ext (by show n.val = n.val * 1 + (w 0).val - 0; omega)
      | ⟨1, _⟩ => exact Fin.ext (by show z.val = z.val * 1 + (w 1).val - 0; omega)
      | ⟨2, _⟩ => exact Fin.ext (by show r.val + (w 2).val - 1 = r.val * 1 + (w 2).val - 1; omega)
      | ⟨3, _⟩ => exact Fin.ext (by show c.val + (w 3).val - 1 = c.val * 1 + (w 3).val - 1; omega)
    · rename_i hneg
      refine absurd (fun a => ?_) hneg
      match a with
      | ⟨0, _⟩ => exact (by show 0 ≤ n.val * 1 + (w 0).val ∧ n.val * 1 + (w 0).val - 0 < 16; omega)
      | ⟨1, _⟩ => exact (by show 0 ≤ z.val * 1 + (w 1).val ∧ z.val * 1 + (w 1).val - 0 < 1; omega)
      | ⟨2, _⟩ => exact (by show 1 ≤ r.val * 1 + (w 2).val ∧ r.val * 1 + (w 2).val - 1 < 1024; omega)
      | ⟨3, _⟩ => exact (by show 1 ≤ c.val * 1 + (w 3).val ∧ c.val * 1 + (w 3).val - 1 < 1024; omega)

/-- The windowed maximum (3×3 windows over the two image axes, one position of padding on each side, from an
    initial value that is -∞) exceeds one half at (n, z, r, c) exactly when a neighbour inside image n does. -/
theorem windowMax_gt (T : FVec Ideal Batch .f32) (init : Sc.Idx → Ideal .f32)
    (h : Batch.ReduceWindows (![1, 1, 3, 3] : Fin 4 → Nat) ![1, 1, 1, 1] ![0, 0, 1, 1] ![0, 0, 1, 1] Batch)
    (hu : 0 < Sc.numel) (hinit : init (Shape.Idx.first hu) = (⊥ : EReal)) (n : Fin 16) (z : Fin 1) (r c : Fin 1024) :
    half < Host.reduceWindow FloatOps.maximumf ![1, 1, 3, 3] ![1, 1, 1, 1] ![0, 0, 1, 1] ![0, 0, 1, 1] T init h hu (ix4 n z r c)
      ↔ nearAbove (fun r' c' => T (ix4 n z r' c')) r c := by
  have hr := r.isLt
  have hc := c.isLt
  rw [reduceWindow_eq, hinit, lt_foldl_max]
  unfold nearAbove
  constructor
  · rintro (h0 | ⟨m, -, hm⟩)
    · exact absurd h0 not_half_lt_bot
    · obtain ⟨hr1, hr2, hc1, hc2, hT⟩ := (winTerm_gt T n z r c _).mp hm
      have hw2 : (Win.rowMajor.symm m 2).val < 3 := (Win.rowMajor.symm m 2).isLt
      have hw3 : (Win.rowMajor.symm m 3).val < 3 := (Win.rowMajor.symm m 3).isLt
      exact ⟨⟨_, hr2⟩, ⟨_, hc2⟩,
        by show r.val ≤ r.val + (Win.rowMajor.symm m 2).val - 1 + 1; omega,
        by show r.val + (Win.rowMajor.symm m 2).val - 1 ≤ r.val + 1; omega,
        by show c.val ≤ c.val + (Win.rowMajor.symm m 3).val - 1 + 1; omega,
        by show c.val + (Win.rowMajor.symm m 3).val - 1 ≤ c.val + 1; omega, hT⟩
  · rintro ⟨r', c', h1, h2, h3, h4, h5⟩
    have hr' := r'.isLt
    have hc' := c'.isLt
    refine Or.inr ⟨Win.rowMajor (ix4 (0 : Fin 1) (0 : Fin 1) (⟨r'.val + 1 - r.val, by omega⟩ : Fin 3)
      (⟨c'.val + 1 - c.val, by omega⟩ : Fin 3)), List.mem_finRange _, ?_⟩
    rw [Equiv.symm_apply_apply]
    refine (winTerm_gt T n z r c _).mpr
      ⟨by show 1 ≤ r.val + (r'.val + 1 - r.val); omega, by show r.val + (r'.val + 1 - r.val) - 1 < 1024; omega,
       by show 1 ≤ c.val + (c'.val + 1 - c.val); omega, by show c.val + (c'.val + 1 - c.val) - 1 < 1024; omega, ?_⟩
    have er : r' = ⟨r.val + (r'.val + 1 - r.val) - 1, by omega⟩ := Fin.ext (by show r'.val = r.val + (r'.val + 1 - r.val) - 1; omega)
    have ec : c' = ⟨c.val + (c'.val + 1 - c.val) - 1, by omega⟩ := Fin.ext (by show c'.val = c.val + (c'.val + 1 - c.val) - 1; omega)
    rw [er, ec] at h5
    exact h5

end Dilate

end
-- ==== Proof.SpecLoss.lean ====
/-
  The mean weighted loss as one function of the two argument arrays.

  For image n the flag of pixel (r, q) is whether some target entry in the 3×3 neighbourhood of (r, q) inside
  image n exceeds one half; the image's loss is the sum of its pixel losses, rows outermost; the result is
  0 plus the two partial sums of eight image losses each, divided by 2²⁴ (the f32 word 0x4B800000).
-/
import proofs.«172257_j10505490006429_2_alg».proof.Proof.Spec
import proofs.«172257_j10505490006429_2_alg».proof.Proof.Dilate

noncomputable section

namespace Spec

open Idealize.ShloMosaic Idealize.ShloMosaic.ValueIdx

/-- A proposition as an i1. -/
def bit (p : Prop) : BitVec 1 := BitVec.ofBool (@decide p (Classical.dec p))

/-- The comparison "a exceeds one half" as an i1 is the bit of any proposition equivalent to it. -/
theorem cmp_eq_bit {a : EReal} {p : Prop} (h : half < a ↔ p) : Ideal.cmp .ogt a half = bit p := by
  unfold Ideal.cmp bit
  exact congrArg BitVec.ofBool (decide_eq_decide.mpr h)

/-- Sixteen one-channel 1024×1024 images. -/
abbrev Batch : Shape := ⟨4, ![16, 1, 1024, 1024]⟩

/-- The loss of image `n`: the sum of its pixel losses. -/
def imageLoss (X T : Batch.Idx → EReal) (n : Fin 16) : EReal :=
  ∑ r : Fin 1024, ∑ q : Fin 1024,
    pixel (X (ix4 n (0 : Fin 1) r q)) (T (ix4 n (0 : Fin 1) r q))
      (bit (Dilate.nearAbove (fun r' c' => T (ix4 n (0 : Fin 1) r' c')) r q))

/-- The result: 0 plus the two partial sums, divided by 2²⁴. -/
def meanLoss (X T : Batch.Idx → EReal) : EReal :=
  Ideal.div (Ideal.ofBits .f32 0x00000000#32 + ∑ i : Fin 2, ∑ b : Fin 8, imageLoss X T (img i b))
    (Ideal.ofBits .f32 0x4B800000#32)

end Spec

end
-- ==== Proof.LibImageCast.lean ====
/-
  A [1, 1, a, b] block viewed as an [a, b] image reads, at (r, q), the block at (0, 0, r, q): both indices sit
  at row-major position r · b + q.  Stated for any extents a and b.
-/
import Idealize.ShloMosaic.Lib.Pipeline.Value
import Idealize.ShloMosaic.Lib.ValueIdx

namespace ImageCast

open Idealize.ShloMosaic Idealize.ShloMosaic.ValueIdx

variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (q : Fin b) :
    shapeCast ⟨2, ![a, b]⟩ x h (ix2 r q) = x (ix4 (0 : Fin 1) (0 : Fin 1) r q) :=
  shapeCast_apply x h _ _ (by
    rw [Shape.rowMajor_val_four, Shape.rowMajor_val_two]
    show ((0 * 1 + 0) * a + r.val) * b + q.val = r.val * b + q.val
    simp only [Nat.zero_mul, Nat.zero_add])

end ImageCast
-- ==== Proof.KernelTotal.lean ====
/-
  The running total as a sum of image losses of the argument arrays (F := Ideal).

  At grid point t the two input blocks are image t of the logits and of the targets (the index maps send
  point (i, b) to image 8·i + b, and the points run in the order t = 8·i + b).  The point's total is
  therefore the loss of image t, and the running total after point n is the sum of the losses of the images
  8·(n / 8), …, n.
-/
import proofs.«172257_j10505490006429_2_alg».proof.Proof.KernelAcc
import proofs.«172257_j10505490006429_2_alg».proof.Proof.SpecLoss
import proofs.«172257_j10505490006429_2_alg».proof.Proof.LibImageCast

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Pieces Cert.KernelIdeal.Payload Cert.KernelIdeal.Acc

variable (m : (ℓ : Loc nD τ sig) → Buf (Elt Ideal) ℓ)

/-- The printed index maps, decided over the grid: the inputs' block at point t is image t, the output's
    block is partial sum t / 8. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

/-- The point as an image number. -/
abbrev imgOf (t : Fin cfg0.N) : Fin 16 := ⟨t.val, lt_of_lt_of_eq t.isLt N_0⟩

/-- The logits' block at point t is image t of the logits. -/
theorem iblk0_apply (c : Dev nD) (t : Fin cfg0.N) (u z : Fin 1) (r q : Fin 1024) :
    (iblk m c 0 t : Vec Ideal S1x1x1024x1024 .f32) (ix4 u z r q)
      = m ((c : Thread nD τ).loc main_arg0) (ix4 (imgOf t) z r q) := by
  obtain ⟨e0, e1, e2, e3, -⟩ := idx_facts t
  unfold iblk
  rw [View.read_apply]
  show V m c main_arg0 _ = _
  rw [V_main_arg0]
  refine congrArg _ (funext fun a => Fin.ext ?_)
  have hu : u.val = 0 := by omega
  match a with
  | ⟨0, _⟩ => show win0_0.index t (0 : Fin 4) * 1 + 1 * u.val = t.val; omega
  | ⟨1, _⟩ => show win0_0.index t (1 : Fin 4) * 1 + 1 * z.val = z.val; omega
  | ⟨2, _⟩ => show win0_0.index t (2 : Fin 4) * 1024 + 1 * r.val = r.val; omega
  | ⟨3, _⟩ => show win0_0.index t (3 : Fin 4) * 1024 + 1 * q.val = q.val; omega

/-- The targets' block at point t is image t of the targets. -/
theorem iblk1_apply (c : Dev nD) (t : Fin cfg0.N) (u z : Fin 1) (r q : Fin 1024) :
    (iblk m c 1 t : Vec Ideal S1x1x1024x1024 .f32) (ix4 u z r q)
      = m ((c : Thread nD τ).loc main_arg1) (ix4 (imgOf t) z r q) := by
  obtain ⟨-, -, -, -, e0, e1, e2, e3, -⟩ := idx_facts t
  unfold iblk
  rw [View.read_apply]
  show V m c main_arg1 _ = _
  rw [V_main_arg1]
  refine congrArg _ (funext fun a => Fin.ext ?_)
  have hu : u.val = 0 := by omega
  match a with
  | ⟨0, _⟩ => show win0_1.index t (0 : Fin 4) * 1 + 1 * u.val = t.val; omega
  | ⟨1, _⟩ => show win0_1.index t (1 : Fin 4) * 1 + 1 * z.val = z.val; omega
  | ⟨2, _⟩ => show win0_1.index t (2 : Fin 4) * 1024 + 1 * r.val = r.val; omega
  | ⟨3, _⟩ => show win0_1.index t (3 : Fin 4) * 1024 + 1 * q.val = q.val; omega

theorem pay4_apply (x : Vec Ideal S1x1x1024x1024 .f32) (r q : Fin 1024) :
    k0_pay4 x (ix2 r q) = x (ix4 (0 : Fin 1) (0 : Fin 1) r q) :=
  ImageCast.shapeCast_11ab_ab_apply x shapeCasts_S1x1x1024x1024_S1024x1024 r q

theorem pay5_apply (x : Vec Ideal S1x1x1024x1024 .f32) (r q : Fin 1024) :
    k0_pay5 x (ix2 r q) = x (ix4 (0 : Fin 1) (0 : Fin 1) r q) :=
  ImageCast.shapeCast_11ab_ab_apply x shapeCasts_S1x1x1024x1024_S1024x1024 r q

/-- The dilated targets the body forms are the dilation by rotations of the targets' image. -/
theorem pay6_eq (x : Vec Ideal S1x1x1024x1024 .f32) :
    k0_pay6 x = Dilate.rollDilate (k0_pay5 x) iota_S1024x1024_d1_w32 iota_S1024x1024_d0_w32
      rotates_S1024x1024_d1 rotates_S1024x1024_d0 := rfl

/-- The total the body adds at point t is the loss of image t. -/
theorem pointTotal_eq (c : Dev nD) (t : Fin cfg0.N) :
    total (lossImg (k0_pay4 (iblk m c 0 t)) (k0_pay5 (iblk m c 1 t)) (k0_pay6 (iblk m c 1 t)))
      = Spec.imageLoss (m ((c : Thread nD τ).loc main_arg0)) (m ((c : Thread nD τ).loc main_arg1)) (imgOf t) := by
  unfold total Spec.imageLoss
  refine Finset.sum_congr rfl fun r _ => Finset.sum_congr rfl fun q _ => ?_
  rw [lossImg_apply, pay6_eq,
    Spec.cmp_eq_bit (Dilate.rollDilate_gt (k0_pay5 (iblk m c 1 t)) iota_S1024x1024_d1_w32 iota_S1024x1024_d0_w32
      rotates_S1024x1024_d1 rotates_S1024x1024_d0 r q)]
  simp only [pay4_apply, pay5_apply, iblk0_apply, iblk1_apply]

/-- Image n's loss, for any natural number (0 past the last image). -/
def lossOf (c : Dev nD) (n : ℕ) : EReal :=
  if h : n < 16 then Spec.imageLoss (m ((c : Thread nD τ).loc main_arg0)) (m ((c : Thread nD τ).loc main_arg1)) ⟨n, h⟩ else 0

theorem step_apply (c : Dev nD) (t : Fin cfg0.N) (xs : Vec Ideal S1x1 .f32) (j : S1x1.Idx) :
    step (iblk m c 0 t) (iblk m c 1 t) xs j = xs j + lossOf m c t.val := by
  have ht : t.val < 16 := lt_of_lt_of_eq t.isLt N_0
  show k0_pay1 _ _ _ (k0_pay7 (F := Ideal)) xs j = _
  rw [pay1_apply, pointTotal_eq, lossOf, dif_pos ht]

/-- After point n the running total is the sum of the losses of the images 8·(n / 8), …, n. -/
theorem acc_apply (c : Dev nD) (j : S1x1.Idx) : ∀ (n : ℕ) (h : n < cfg0.N),
    acc m c n h j = ∑ b ∈ Finset.range (n % 8 + 1), lossOf m c (8 * (n / 8) + b)
  | 0, h => by
    show step (iblk m c 0 ⟨0, h⟩) (iblk m c 1 ⟨0, h⟩) (k0_pay3 (F := Ideal)) j = _
    rw [step_apply, pay3_apply, zero_add]
    simp
  | n + 1, h => by
    by_cases h0 : (n + 1) % 8 = 0
    · rw [acc_succ_reset m c n h h0, step_apply, pay3_apply, zero_add, h0]
      rw [Finset.sum_range_one]
      exact congrArg _ (by show n + 1 = 8 * ((n + 1) / 8) + 0; omega)
    · rw [acc_succ_carry m c n h h0, step_apply]
      rw [show (n + 1) % 8 + 1 = (n % 8 + 1) + 1 from by omega, Finset.sum_range_succ,
        show (n + 1) / 8 = n / 8 from by omega]
      rw [acc_apply c j n (Nat.lt_of_succ_lt h)]
      exact congrArg _ (congrArg _ (by show n + 1 = 8 * (n / 8) + (n % 8 + 1); omega))

end Cert.KernelIdeal.Total

end
-- ==== Proof.KernelValue.lean ====
/-
  The tiled program's result (F := Ideal).

  The region's result array has one entry per partial sum.  Its block i is written back once, after point
  8·i + 7, when the running total is the sum of the losses of the images 8·i, …, 8·i + 7; the two blocks
  cover the array.  The host lines after the region add the two entries to 0 and divide by 2²⁴: the mean
  weighted loss of the arguments.
-/
import proofs.«172257_j10505490006429_2_alg».proof.Proof.KernelTotal
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Payload Cert.KernelIdeal.Acc
  Cert.KernelIdeal.Total

variable (m : (ℓ : Loc nD τ sig) → Buf (Elt Ideal) ℓ) (ρ : Dev nD → PrngReg)

/-- The region's result array: entry (i, 0, 0) is the i-th partial sum. -/
def partials (c : Dev nD) : S2x1x1.Idx → EReal :=
  fun j => ∑ b ∈ Finset.range 8, lossOf m c (8 * (j 0).val + b)

/-- What a write-back writes is the block of the partial sums. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  obtain ⟨-, -, -, -, -, -, -, -, e0, e1, e2⟩ := idx_facts t
  show (cfg0.win 2).cut (grid0.coords t) ((dats m 0 c).after 2 t) = _
  rw [after0_2, outsAt_fst m c t h7]
  funext y
  rw [View.read_apply]
  obtain ⟨a, b, d, rfl⟩ : ∃ a b d : Fin 1, y = ix3 a b d := ⟨y 0, y 1, y 2, eq_ix3 y⟩
  show k0_pay2 (acc m c t.val t.isLt) (ix3 a b d) = partials m c (((cfg0.win 2).blk t).view.emb (ix3 a b d))
  rw [pay2_apply, acc_apply]
  unfold partials
  have hi : ((((cfg0.win 2).blk t).view.emb (ix3 a b d)) 0).val = t.val / 8 := by
    show win0_2.index t (0 : Fin 3) * 1 + 1 * a.val = _
    omega
  rw [hi, show t.val % 8 + 1 = 8 from by omega]

/-- Every entry of the result array lies in the block written back after point 8·i + 7. -/
theorem cover (c : Dev nD) (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 16 := N_0
  have hlt : 8 * (i 0).val + 7 < cfg0.N := by omega
  obtain ⟨-, -, -, -, -, -, -, -, e0, e1, e2⟩ := idx_facts ⟨8 * (i 0).val + 7, hlt⟩
  have e0' : win0_2.index ⟨8 * (i 0).val + 7, hlt⟩ (0 : Fin 3) = (8 * (i 0).val + 7) / 8 := e0
  refine ⟨⟨8 * (i 0).val + 7, hlt⟩, (flush0_2 _).mpr (by show (8 * (i 0).val + 7) % 8 = 7; omega), ?_⟩
  show i ∈ ((View.whole main_v0).slice (win0_2.rect ⟨8 * (i 0).val + 7, hlt⟩)).set
  rw [View.set_slice_whole, Rect.mem_set_unit]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 1 ≤ (i 1).val
      ∧ (i 1).val < win0_2.index ⟨8 * (i 0).val + 7, hlt⟩ (1 : Fin 3) * 1 + 1
    omega
  | ⟨2, _⟩ =>
    show win0_2.index ⟨8 * (i 0).val + 7, hlt⟩ (2 : Fin 3) * 1 ≤ (i 2).val
      ∧ (i 2).val < win0_2.index ⟨8 * (i 0).val + 7, hlt⟩ (2 : Fin 3) * 1 + 1
    omega

/-- After the region the result array holds the partial sums. -/
theorem final (c : Dev nD) : (dats m 0 c).arrAt 2 cfg0.N = partials m c :=
  (dats m 0 c).arrAt_eq_of_cover 2 (partials m c) (flushed_eq m c) (cover c)

/-- The i-th partial sum is the sum of the losses of its eight images. -/
theorem partials_apply (c : Dev nD) (i : Fin 2) (u z : Fin 1) :
    partials m c (ix3 i u z)
      = ∑ b : Fin 8, Spec.imageLoss (m ((c : Thread nD τ).loc main_arg0)) (m ((c : Thread nD τ).loc main_arg1)) (Spec.img i b) := by
  show ∑ b ∈ Finset.range 8, lossOf m c (8 * i.val + b) = _
  rw [Finset.sum_range]
  refine Finset.sum_congr rfl fun b _ => ?_
  have hb : 8 * i.val + b.val < 16 := by have := i.isLt; have := b.isLt; omega
  rw [lossOf, dif_pos hb]

/-- The host lines after the region leave the mean weighted loss in the result. -/
theorem tail_eq (c : Dev nD) :
    Pipeline.afterTail₀ cfgs (dats m) 0 (V0 m) [hostOps1] c main_v2
      = fun _ => Spec.meanLoss (m ((c : Thread nD τ).loc main_arg0)) (m ((c : Thread nD τ).loc main_arg1)) := by
  unfold Pipeline.afterTail₀
  show StableHlo.after hostOps1 _ (Proc.devRef .tc main_v2) = _
  after_results
  rw [(Pipeline.withArrays_arr spec0 launch0.win.arr_inj c _ _ 2).trans (final m c)]
  funext i
  show Ideal.div (Ideal.hostReduceAdd reducesTo_S2x1x1_S_d0_1_2 (partials m c) (Ideal.ofBits .f32 0x00000000#32) i)
      (Ideal.ofBits .f32 0x4B800000#32) = _
  rw [Ideal.hostReduceAdd_total reducesTo_S2x1x1_S_d0_1_2 (fun b => b.elim0), Spec.sum_idx3]
  unfold Spec.meanLoss
  simp only [Fin.sum_univ_one, partials_apply]

/-- The run, read: the result at the mean weighted loss of the arguments, the arguments unchanged. -/
theorem run : θ_run defs (onTc (τ := τ) (main (F := Ideal))) ⟨m, fun _ => 0, ρ⟩ fun r => ∀ c : Dev nD,
      r.2.mem ((c.tc : Thread nD τ).loc main_v2)
        = (fun _ => Spec.meanLoss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
/-
  The reference's result is the mean weighted loss of its two arguments (F := Ideal).

  Read one operation at a time, the reference's loss array holds at (n, 0, r, q) the pixel loss of the logit
  and target there, the flag being "the windowed maximum of the targets exceeds one half" — which holds
  exactly when a target in the 3×3 neighbourhood inside image n does.  Its result is 0 plus the sum over all
  indices, which regroups into the two partial sums of eight image losses, divided by 2²⁴.
-/
import proofs.«172257_j10505490006429_2_alg».proof.Proof.Gen.ReferenceIdeal.Read
import proofs.«172257_j10505490006429_2_alg».proof.Proof.SpecLoss

noncomputable section

namespace Cert.ReferenceIdeal.RefValue

open Cert.ReferenceIdeal Cert.ReferenceIdeal.Gen Cert.ReferenceIdeal.Read Idealize.ShloMosaic Idealize.ShloMosaic.ValueIdx

/-- The windowed maximum starts from −∞. -/
theorem init_bot : val_main_v0 (F := Ideal) (Shape.Idx.first h_S_) = (⊥ : EReal) := by
  rw [val_main_v0_apply, val_main_cst_apply]
  simp [Ideal.ofBits, Ideal.ieee]

/-- The reference's flag at a pixel. -/
theorem flag_eq (T : (⟨S16x1x1024x1024, .f32⟩ : BufTy).Contents (Elt Ideal)) (n : Fin 16) (r q : Fin 1024) :
    Ideal.cmp .ogt (val_main_v1 (F := Ideal) T (ix4 n (0 : Fin 1) r q)) Spec.half
      = Spec.bit (Dilate.nearAbove (fun r' c' => T (ix4 n (0 : Fin 1) r' c')) r q) :=
  Spec.cmp_eq_bit (Dilate.windowMax_gt T (val_main_v0 (F := Ideal))
    reduceWindows_S16x1x1024x1024_S16x1x1024x1024_w1s1p0_0_w1s1p0_0_w3s1p1_1_w3s1p1_1 h_S_ init_bot n 0 r q)

/-- The reference's loss array at a pixel is the pixel loss. -/
theorem loss_apply (X T : (⟨S16x1x1024x1024, .f32⟩ : BufTy).Contents (Elt Ideal)) (n : Fin 16) (r q : Fin 1024) :
    val_main_v18 (F := Ideal) X T (ix4 n (0 : Fin 1) r q)
      = Spec.pixel (X (ix4 n (0 : Fin 1) r q)) (T (ix4 n (0 : Fin 1) r q))
          (Spec.bit (Dilate.nearAbove (fun r' c' => T (ix4 n (0 : Fin 1) r' c')) r q)) := by
  rw [val_main_v18_apply, val_main_v17_apply, val_main_v7_apply, val_main_v3_apply, val_main_v2_apply,
    val_main_cst_0_apply, val_main_call1_v0_apply, val_main_cst_4_apply, val_main_v6_apply, val_main_v5_apply,
    val_main_v4_apply, val_main_cst_1_apply, val_main_call0_v0_apply, val_main_cst_2_apply, val_main_call0_v1_apply,
    val_main_cst_3_apply, val_main_v16_apply, val_main_v11_apply, val_main_v9_apply, val_main_v8_apply,
    val_main_cst_5_apply, val_main_v10_apply, val_main_v15_apply, val_main_v14_apply, val_main_v13_apply,
    val_main_v12_apply]
  show Scalar.select (Ideal.cmp .ogt (T (ix4 n (0 : Fin 1) r q)) Spec.half) Spec.twenty
        (Scalar.select (Ideal.cmp .ogt (val_main_v1 (F := Ideal) T (ix4 n (0 : Fin 1) r q)) Spec.half) Spec.five Spec.one)
      * ((max (X (ix4 n (0 : Fin 1) r q)) (Ideal.ofBits .f32 0x00000000#32) - X (ix4 n (0 : Fin 1) r q) * T (ix4 n (0 : Fin 1) r q))
        + Ideal.log1p (Ideal.exp (-(max (X (ix4 n (0 : Fin 1) r q)) (-(X (ix4 n (0 : Fin 1) r q))))))) = _
  rw [flag_eq, Ideal.ofBits_zero_f32]
  rfl

/-- The reference's result. -/
theorem result_apply (X T : (⟨S16x1x1024x1024, .f32⟩ : BufTy).Contents (Elt Ideal)) (i : S_.Idx) :
    val_main_v20 (F := Ideal) X T i = Spec.meanLoss X T := by
  rw [val_main_v20_apply, val_main_v19_apply, val_main_cst_6_apply, val_main_cst_7_apply, Spec.sum_batch]
  unfold Spec.meanLoss Spec.imageLoss
  simp only [loss_apply]
  rfl

end Cert.ReferenceIdeal.RefValue

end
-- ==== Proof.lean ====
/-
  A weighted binary cross-entropy with logits, averaged over sixteen 1024×1024 images: a tiled program
  against a whole-array reference, equal as extended reals.

  Per pixel, with logit x and target t, both programs form

      w · ((max x 0 − x·t) + log(1 + e^{−|x|})),   w = 20 if t > 1/2, else 5 if d > 1/2, else 1,

  where d is the 3×3 dilation (a maximum over the neighbourhood) of the targets at the pixel, and both
  return the sum of these over all pixels divided by 2²⁴.  They differ in two places.

  The dilation.  The reference takes a windowed maximum of the targets padded with −∞; the tiled program
  rotates the image by one position each way along the lanes and then along the rows, masks the wrapped
  border to 0 and takes maxima.  The two dilated images may differ (0 against −∞ at the border), but they
  are only ever compared with one half, and a maximum exceeds one half exactly when one of its operands
  does: either way the comparison holds exactly when a target inside the image, in the 3×3 neighbourhood,
  exceeds one half, because neither padding value does (Proof/Dilate.lean).  No assumption on the inputs
  is needed for this.

  The sum.  The reference adds all 2²⁴ terms at once; the tiled program adds the lanes of a row, the rows
  of an image, eight images into each of two running totals (one grid point per image, the total kept in
  a scratch cell between points and copied out after the eighth), and finally the two totals.  Addition
  of extended reals is commutative and associative, so the groupings agree (Proof/Spec.lean); again no
  finiteness is used, and the precondition is never opened.

  The tiled program's run comes from its generated frame: what the scratch and the output block hold
  after each point is read off the run's stores (Proof/KernelPieces.lean), identified by induction on
  the point with a sum of image losses (Proof/KernelAcc.lean, Proof/KernelTotal.lean), and carried
  through the write-backs and the host lines after the region (Proof/KernelValue.lean).  The reference's
  run is its generated run, read one operation at a time (Proof/RefValue.lean).  The idealization
  rewrote nothing, so the `preserves` conjunct is `True`.
-/
import proofs.«172257_j10505490006429_2_alg».proof.Defs
import proofs.«172257_j10505490006429_2_alg».proof.Proof.Gen.Kernel
import proofs.«172257_j10505490006429_2_alg».proof.Proof.Gen.Kernel.Skeleton
import proofs.«172257_j10505490006429_2_alg».proof.Proof.Gen.Kernel.Launch
import proofs.«172257_j10505490006429_2_alg».proof.Proof.Gen.Kernel.Points
import proofs.«172257_j10505490006429_2_alg».proof.Proof.Gen.Kernel.Frame
import proofs.«172257_j10505490006429_2_alg».proof.Proof.Gen.KernelIdeal
import proofs.«172257_j10505490006429_2_alg».proof.Proof.Gen.KernelIdeal.Skeleton
import proofs.«172257_j10505490006429_2_alg».proof.Proof.Gen.KernelIdeal.Launch
import proofs.«172257_j10505490006429_2_alg».proof.Proof.Gen.KernelIdeal.Points
import proofs.«172257_j10505490006429_2_alg».proof.Proof.Gen.KernelIdeal.Frame
import proofs.«172257_j10505490006429_2_alg».proof.Proof.Gen.ReferenceIdeal
import proofs.«172257_j10505490006429_2_alg».proof.Proof.Gen.Pre_finite_inputs
import proofs.«172257_j10505490006429_2_alg».proof.Proof.KernelValue
import proofs.«172257_j10505490006429_2_alg».proof.Proof.RefValue
import Idealize.ShloMosaic.Adequacy
import Idealize.ShloMosaic.Init

noncomputable section

namespace Cert.Proof

open Idealize.ShloMosaic Idealize.SL.Sem

/-- The word-level program runs and leaves its arguments unchanged: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the mean weighted loss of the arguments
    in their result. -/
theorem algebraic : Cert.algebraic_KernelIdeal_ReferenceIdeal := by
  intro m ρ m' ρ' _ hagree
  refine ⟨fun c _ => Spec.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
